-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3x3x4 : Shape := ⟨4, ![262144, 3, 3, 4]⟩
abbrev S128x128 : Shape := ⟨2, ![128, 128]⟩
abbrev S_ : Shape := ⟨0, ![]⟩
abbrev S95x128 : Shape := ⟨2, ![95, 128]⟩

class Facts : Prop where
  bcast_S_S262144x3x3x4 : S_.BroadcastsInDim S262144x3x3x4 (![] : Fin 0 → Fin S262144x3x3x4.rank)
  reducesTo_S262144x3x3x4_S_d0_1_2_3 : S262144x3x3x4.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_
  slices_S128x128_S95x128_33_0 : S128x128.Slices ![33, 0] S95x128
  bcast_S_S95x128 : S_.BroadcastsInDim S95x128 (![] : Fin 0 → Fin S95x128.rank)
  reducesTo_S95x128_S_d0_1 : S95x128.ReducesTo [0, 1] S_

variable [Facts]

def fn_part1 {F : FTy → Type} [FloatOps F] (main_v13 : IVec S_ 1) (main_v16 : IVec S95x128 1) : IVec S_ 1 :=
  let main_c_5 : IVec S_ 1 := constantI S_ 1 1#1
  let main_v17 : IVec S_ 1 := (fun x v => Host.reduce IntOp.andi x v reducesTo_S95x128_S_d0_1 h_S_) main_v16 main_c_5
  let main_v18 : IVec S_ 1 := andi main_v13 main_v17
  main_v18

def fn {F : FTy → Type} [FloatOps F] (main_arg0 : FVec F S262144x3x3x4 .f32) (main_arg1 : FVec F S128x128 .f32) (main_arg2 : FVec F S128x128 .f32) : IVec S_ 1 :=
  let main_v0 : FVec F S262144x3x3x4 .f32 := Host.absf main_arg0
  let main_cst : FVec F S_ .f32 := constant S_ .f32 0x7F800000#32
  let main_v1 : FVec F S262144x3x3x4 .f32 := broadcastInDim S262144x3x3x4 ![] bcast_S_S262144x3x3x4 main_cst
  let main_v2 : IVec S262144x3x3x4 1 := cmpf .olt main_v0 main_v1
  let main_c : IVec S_ 1 := constantI S_ 1 1#1
  let main_v3 : IVec S_ 1 := (fun x v => Host.reduce IntOp.andi x v reducesTo_S262144x3x3x4_S_d0_1_2_3 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S95x128 .f32 := (extractStridedSlice S95x128 ![33, 0] · slices_S128x128_S95x128_33_0) main_arg2
  let main_cst_4 : FVec F S_ .f32 := constant S_ .f32 0x00000000#32
  let main_v15 : FVec F S95x128 .f32 := broadcastInDim S95x128 ![] bcast_S_S95x128 main_cst_4
  let main_v16 : IVec S95x128 1 := cmpf .oeq main_v14 main_v15
  fn_part1 (F := F) main_v13 main_v16
-- ==== Kernel.lean ====
abbrev S262144x3x3x4 : Shape := ⟨4, ![262144, 3, 3, 4]⟩
abbrev S128x128 : Shape := ⟨2, ![128, 128]⟩
abbrev S3x3x4x262144 : Shape := ⟨4, ![3, 3, 4, 262144]⟩
abbrev S9x4x262144 : Shape := ⟨3, ![9, 4, 262144]⟩
abbrev S4x262144 : Shape := ⟨2, ![4, 262144]⟩
abbrev S9x4x65536 : Shape := ⟨3, ![9, 4, 65536]⟩
abbrev S4x65536 : Shape := ⟨2, ![4, 65536]⟩
abbrev S36x65536 : Shape := ⟨2, ![36, 65536]⟩
abbrev S1x65536 : Shape := ⟨2, ![1, 65536]⟩
abbrev S37x65536 : Shape := ⟨2, ![37, 65536]⟩
abbrev S37x33 : Shape := ⟨2, ![37, 33]⟩
abbrev S33x65536 : Shape := ⟨2, ![33, 65536]⟩
abbrev S33x4 : Shape := ⟨2, ![33, 4]⟩
abbrev S262144x4 : Shape := ⟨2, ![262144, 4]⟩

abbrev nBuf : Space → Nat
  | .hbm => 7
  | .vmem => 6
  | .smem => 0
  | _ => 0

abbrev bufTy : (tb : Table) → Fin (tcTables nBuf tb) → BufTy
  | .hbm, ⟨0, _⟩ => ⟨S262144x3x3x4, .f32⟩
  | .hbm, ⟨1, _⟩ => ⟨S128x128, .f32⟩
  | .hbm, ⟨2, _⟩ => ⟨S128x128, .f32⟩
  | .hbm, ⟨3, _⟩ => ⟨S3x3x4x262144, .f32⟩
  | .hbm, ⟨4, _⟩ => ⟨S9x4x262144, .f32⟩
  | .hbm, ⟨5, _⟩ => ⟨S4x262144, .f32⟩
  | .hbm, ⟨6, _⟩ => ⟨S262144x4, .f32⟩
  | .local _ .vmem, ⟨0, _⟩ => ⟨S9x4x65536, .f32⟩
  | .local _ .vmem, ⟨1, _⟩ => ⟨S9x4x65536, .f32⟩
  | .local _ .vmem, ⟨2, _⟩ => ⟨S128x128, .f32⟩
  | .local _ .vmem, ⟨3, _⟩ => ⟨S128x128, .f32⟩
  | .local _ .vmem, ⟨4, _⟩ => ⟨S4x65536, .f32⟩
  | .local _ .vmem, ⟨5, _⟩ => ⟨S4x65536, .f32⟩
  | _, _ => ⟨S262144x3x3x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S9x4x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S262144x3x3x4_S3x3x4x262144_1_2_3_0 : S262144x3x3x4.Transposes [1, 2, 3, 0] S3x3x4x262144
  shapeCasts_S3x3x4x262144_S9x4x262144 : S3x3x4x262144.ShapeCasts S9x4x262144
  inb_S9x4x65536_S9x4x65536_0_0_0 : ∀ a, (![0, 0, 0] : Fin 3 → Nat) a + S9x4x65536.size a ≤ S9x4x65536.size a
  h_S9x4x65536 : 0 < S9x4x65536.numel
  shapeCasts_S9x4x65536_S9x4x65536 : S9x4x65536.ShapeCasts S9x4x65536
  shapeCasts_S9x4x65536_S36x65536 : S9x4x65536.ShapeCasts S36x65536
  concatenates_S36x65536_S1x65536_S37x65536_d0 : Shape.Concatenates [S36x65536, S1x65536] S37x65536 0
  inb_S128x128_S37x33_0_0 : ∀ a, (![0, 0] : Fin 2 → Nat) a + S37x33.size a ≤ S128x128.size a
  h_S37x33 : 0 < S37x33.numel
  inb_S128x128_S33x4_0_0 : ∀ a, (![0, 0] : Fin 2 → Nat) a + S33x4.size a ≤ S128x128.size a
  h_S33x4 : 0 < S33x4.numel
  inb_S4x65536_S4x65536_0_0 : ∀ a, (![0, 0] : Fin 2 → Nat) a + S4x65536.size a ≤ S4x65536.size a
  h_S4x65536 : 0 < S4x65536.numel
  transposes_S4x262144_S262144x4_1_0 : S4x262144.Transposes [1, 0] S262144x4
  dot_S37x33_S37x65536_S33x65536_0_0_1_1_n_n_wf : DotDims.WF S37x33 S37x65536 S33x65536 [0] [0] [1] [1] [] []
  dot_S33x4_S33x65536_S4x65536_0_0_1_1_n_n_wf : DotDims.WF S33x4 S33x65536 S4x65536 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S9x4x65536.size a ≤ S9x4x262144.size a
  hwx0_0 : ∀ i : grid0.Coords, EltTy.bits .f32 = 32 ∨ (Rect.block (s := S9x4x262144) S9x4x65536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x65536.size a ≤ S4x262144.size a
  hwx0_3 : ∀ i : grid0.Coords, EltTy.bits .f32 = 32 ∨ (Rect.block (s := S4x262144) S4x65536.size (cc0_transform_3 i) (hinb0_3 i)).WholeWords (EltTy.packing .f32)

variable [Facts₀]

def dot_S37x33_S37x65536_S33x65536_0_0_1_1_n_n : DotDims S37x33 S37x65536 S33x65536 where
  lhsContracting := [0]
  rhsContracting := [0]
  lhsNonContracting := [1]
  rhsNonContracting := [1]
  lhsBatch := []
  rhsBatch := []
  wf := dot_S37x33_S37x65536_S33x65536_0_0_1_1_n_n_wf
def dot_S33x4_S33x65536_S4x65536_0_0_1_1_n_n : DotDims S33x4 S33x65536 S4x65536 where
  lhsContracting := [0]
  rhsContracting := [0]
  lhsNonContracting := [1]
  rhsNonContracting := [1]
  lhsBatch := []
  rhsBatch := []
  wf := dot_S33x4_S33x65536_S4x65536_0_0_1_1_n_n_wf

abbrev win0_0 : Pipeline.Window sig grid0 :=
  Pipeline.Window.ofSpec (Memref.whole main_v1) S9x4x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x65536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x3x3x4 : Shape := ⟨4, ![262144, 3, 3, 4]⟩
abbrev S128x128 : Shape := ⟨2, ![128, 128]⟩
abbrev S262144x36 : Shape := ⟨2, ![262144, 36]⟩
abbrev S_ : Shape := ⟨0, ![]⟩
abbrev S262144x1 : Shape := ⟨2, ![262144, 1]⟩
abbrev S262144x37 : Shape := ⟨2, ![262144, 37]⟩
abbrev S262144x128 : Shape := ⟨2, ![262144, 128]⟩
abbrev S262144x4 : Shape := ⟨2, ![262144, 4]⟩
abbrev S256x128 : Shape := ⟨2, ![256, 128]⟩

abbrev nBuf : Space → Nat
  | .hbm => 12
  | .vmem => 6
  | .smem => 0
  | _ => 0

abbrev bufTy : (tb : Table) → Fin (tcTables nBuf tb) → BufTy
  | .hbm, ⟨0, _⟩ => ⟨S262144x3x3x4, .f32⟩
  | .hbm, ⟨1, _⟩ => ⟨S128x128, .f32⟩
  | .hbm, ⟨2, _⟩ => ⟨S128x128, .f32⟩
  | .hbm, ⟨3, _⟩ => ⟨S262144x36, .f32⟩
  | .hbm, ⟨4, _⟩ => ⟨S_, .f32⟩
  | .hbm, ⟨5, _⟩ => ⟨S262144x1, .f32⟩
  | .hbm, ⟨6, _⟩ => ⟨S262144x37, .f32⟩
  | .hbm, ⟨7, _⟩ => ⟨S_, .i32⟩
  | .hbm, ⟨8, _⟩ => ⟨S_, .f32⟩
  | .hbm, ⟨9, _⟩ => ⟨S262144x128, .f32⟩
  | .hbm, ⟨10, _⟩ => ⟨S262144x128, .f32⟩
  | .hbm, ⟨11, _⟩ => ⟨S262144x4, .f32⟩
  | .local _ .vmem, ⟨0, _⟩ => ⟨S256x128, .f32⟩
  | .local _ .vmem, ⟨1, _⟩ => ⟨S256x128, .f32⟩
  | .local _ .vmem, ⟨2, _⟩ => ⟨S128x128, .f32⟩
  | .local _ .vmem, ⟨3, _⟩ => ⟨S128x128, .f32⟩
  | .local _ .vmem, ⟨4, _⟩ => ⟨S256x128, .f32⟩
  | .local _ .vmem, ⟨5, _⟩ => ⟨S256x128, .f32⟩
  | _, _ => ⟨S262144x3x3x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_call0_c : Ref sig .tc := ⟨.hbm, 7, rfl⟩
abbrev main_call0_call0_v0 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S262144x3x3x4_S262144x36 : S262144x3x3x4.ShapeCasts S262144x36
  bcast_S_S262144x1 : S_.BroadcastsInDim S262144x1 (![] : Fin 0 → Fin S262144x1.rank)
  concatenates_S262144x36_S262144x1_S262144x37_d1 : Shape.Concatenates [S262144x36, S262144x1] S262144x37 1
  pads_S262144x37_S262144x128_000_0910 : S262144x37.Pads (![0, 0] : Fin 2 → Nat) ![0, 91] ![0, 0] S262144x128
  h_S_ : 0 < S_.numel
  slices_S262144x128_S262144x4_0_0 : S262144x128.Slices ![0, 0] S262144x4
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x128_S128x128_0_0 : ∀ a, (![0, 0] : Fin 2 → Nat) a + S128x128.size a ≤ S128x128.size a
  h_S128x128 : 0 < S128x128.numel
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S262144x128.size a
  hwx0_0 : ∀ i : grid0.Coords, EltTy.bits .f32 = 32 ∨ (Rect.block (s := S262144x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S262144x128.size a
  hwx0_3 : ∀ i : grid0.Coords, EltTy.bits .f32 = 32 ∨ (Rect.block (s := S262144x128) S256x128.size (cc0_transform_3 i) (hinb0_3 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_call0_v3) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibDotCols.lean ====
/-
  A matrix product contracted over the FIRST axis of both operands, read at an index, at the ideal values.

  For the dimension numbers of a `[K, M]` by `[K, N]` product that contracts the two leading axes (the left operand used
  transposed; no batch axis) the contraction index has one coordinate, so the sum over it is a sum over `k : Fin K`, and
  the operand indices at the result index `(p, q)` are `(k, p)` and `(k, q)`. Hence, on the extended reals, a matrix-unit
  product accumulated into the zero splat is `colsTimes`: entry `(p, q)` is `∑ k, l (k, p) * r (k, q)`.
-/
import Idealize.ShloMosaic.PureOps.Ideal.Laws
import Idealize.ShloMosaic.Lib.ValueIdx

noncomputable section

namespace Cert.LibDotCols

open Idealize.ShloMosaic Idealize.ShloMosaic.ValueIdx

/-- The dimension numbers `<[0], [0], [1], [1], …, [], []>`: `K×M` by `K×N`, both contracted on their first axis. -/
def colsDims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The product of the transpose of a `[K, M]` array of extended reals with a `[K, N]` one: entry `(p, q)` is the sum
    over `k` of `l (k, p) * r (k, q)`. -/
def colsTimes {K M N : ℕ} (l : (⟨2, ![K, M]⟩ : Shape).Idx → EReal) (r : (⟨2, ![K, N]⟩ : Shape).Idx → EReal) :
    (⟨2, ![M, N]⟩ : Shape).Idx → EReal :=
  fun j => ∑ k : Fin K, l (ix2 k (⟨(j 0).val, idx2_lt0 j⟩ : Fin M)) * r (ix2 k (⟨(j 1).val, idx2_lt1 j⟩ : Fin N))

theorem colsTimes_apply {K M N : ℕ} (l : (⟨2, ![K, M]⟩ : Shape).Idx → EReal) (r : (⟨2, ![K, N]⟩ : Shape).Idx → EReal)
    (p : Fin M) (q : Fin N) : colsTimes l r (ix2 p q) = ∑ k : Fin K, l (ix2 k p) * r (ix2 k q) := rfl

/-- These dimension numbers contract one axis, of extent `K`. -/
theorem cols_contr_rank (K M N : ℕ) : (colsDims K M N).contr.rank = 1 := rfl
theorem cols_contr_size (K M N : ℕ) : (colsDims K M N).contr.size ⟨0, by rw [cols_contr_rank]; exact Nat.one_pos⟩ = K := rfl

/-- The operands' indices at result index `j` and contraction index `q`: the contracted (first) axes follow the
    contraction coordinate, the left operand's column the result's row, the right operand's column the result's column. -/
theorem cols_lhs0 (K M N : ℕ) (j : (⟨2, ![M, N]⟩ : Shape).Idx) (q : (colsDims K M N).contr.Idx) :
    ((colsDims K M N).lhsIdx j q 0).val = (q ⟨0, by rw [cols_contr_rank]; exact Nat.one_pos⟩).val := rfl
theorem cols_lhs1 (K M N : ℕ) (j : (⟨2, ![M, N]⟩ : Shape).Idx) (q : (colsDims K M N).contr.Idx) :
    ((colsDims K M N).lhsIdx j q 1).val = (j 0).val := rfl
theorem cols_rhs0 (K M N : ℕ) (j : (⟨2, ![M, N]⟩ : Shape).Idx) (q : (colsDims K M N).contr.Idx) :
    ((colsDims K M N).rhsIdx j q 0).val = (q ⟨0, by rw [cols_contr_rank]; exact Nat.one_pos⟩).val := rfl
theorem cols_rhs1 (K M N : ℕ) (j : (⟨2, ![M, N]⟩ : Shape).Idx) (q : (colsDims K M N).contr.Idx) :
    ((colsDims K M N).rhsIdx j q 1).val = (j 1).val := rfl

/-- The sum over the contraction index of the operands' products is `colsTimes`. -/
theorem cols_sum {K M N : ℕ} (l : (⟨2, ![K, M]⟩ : Shape).Idx → EReal) (r : (⟨2, ![K, N]⟩ : Shape).Idx → EReal)
    (j : (⟨2, ![M, N]⟩ : Shape).Idx) :
    ∑ q : (colsDims K M N).contr.Idx, l ((colsDims K M N).lhsIdx j q) * r ((colsDims K M N).rhsIdx j q)
      = colsTimes l r j := by
  unfold colsTimes
  rw [← Equiv.sum_comp (contrEquiv1 (colsDims K M N) K (cols_contr_rank K M N) (cols_contr_size K M N)).symm]
  refine Finset.sum_congr rfl fun k _ => ?_
  have hk := contrEquiv1_symm_val (colsDims K M N) K (cols_contr_rank K M N) (cols_contr_size K M N) k
  have el : (colsDims K M N).lhsIdx j ((contrEquiv1 (colsDims K M N) K (cols_contr_rank K M N) (cols_contr_size K M N)).symm k)
      = ix2 k (⟨(j 0).val, idx2_lt0 j⟩ : Fin M) := funext fun a => Fin.ext (by
    match a with
    | ⟨0, _⟩ => exact (cols_lhs0 K M N j _).trans hk
    | ⟨1, _⟩ => exact cols_lhs1 K M N j _)
  have er : (colsDims K M N).rhsIdx j ((contrEquiv1 (colsDims K M N) K (cols_contr_rank K M N) (cols_contr_size K M N)).symm k)
      = ix2 k (⟨(j 1).val, idx2_lt1 j⟩ : Fin N) := funext fun a => Fin.ext (by
    match a with
    | ⟨0, _⟩ => exact (cols_rhs0 K M N j _).trans hk
    | ⟨1, _⟩ => exact cols_rhs1 K M N j _)
  rw [el, er]

/-- A matrix-unit product accumulated into the zero splat, over these dimension numbers, is `colsTimes`. -/
theorem matmul_zero_cols {K M N : ℕ} {φ₁ φ₂ : FTy} (prec : Option ContractPrecision)
    (l : FVec Ideal ⟨2, ![K, M]⟩ φ₁) (r : FVec Ideal ⟨2, ![K, N]⟩ φ₂) :
    FloatOps.matmul (colsDims K M N) prec l r (constant ⟨2, ![M, N]⟩ .f32 0x00000000#32) = colsTimes l r :=
  funext fun j => (Ideal.matmul_constant_zero_apply (colsDims K M N) prec l r j).trans (cols_sum l r j)

end Cert.LibDotCols

end
-- ==== Proof.CellSpec.lean ====
/-
  The function both programs compute, on the extended reals.

  A cell `n` has 37 features: the 36 entries of its 3×3×4 neighbourhood, in row-major order, and the constant one
  (written as the same f32 word both programs carry, so it is never evaluated). Its 33 hidden values are
  `max (∑ k, w1 (k, j) * feature k) 0` for `j < 33`, and its 4 outputs `∑ j, w2 (j, c) * hidden j` for `c < 4`: only
  rows `< 37` and columns `< 33` of the first weight tile and rows `< 33`, columns `< 4` of the second are read.

  The other arrangement, `∑ j < 128, max (∑ k < 128, p k * w1 (k, j)) 0 * w2 (j, c)` over a feature row `p` padded with
  zeros to 128 entries, is the same number when rows `≥ 33` of the second tile are zero: the padded features contribute
  `0 * w1 = 0`, the hidden columns `≥ 33` meet `· * 0 = 0`; both facts hold for every extended real, so no finiteness
  is needed, and the rest is commutativity of the product.
-/
import Idealize.ShloMosaic.PureOps.Ideal
import Idealize.ShloMosaic.Lib.ValueIdx

noncomputable section

namespace Cert.CellSpec

open Idealize.ShloMosaic Idealize.ShloMosaic.ValueIdx

/-- The word both programs carry for the constant feature (f32 `1.0`), kept as written. -/
abbrev oneWord : EReal := Ideal.ofBits .f32 0x3F800000#32

/-- Feature `k` of cell `n`: entry `(k / 12, k / 4 % 3, k % 4)` of its neighbourhood for `k < 36`, the constant for `k = 36`. -/
def feat (x : (⟨4, ![262144, 3, 3, 4]⟩ : Shape).Idx → EReal) (n : Fin 262144) (k : Fin 37) : EReal :=
  if h : k.val < 36 then
    x (ix4 n (⟨k.val / 12, by omega⟩ : Fin 3) (⟨k.val / 4 % 3, by omega⟩ : Fin 3) (⟨k.val % 4, by omega⟩ : Fin 4))
  else oneWord

/-- Hidden value `j` of a cell with features `f`. -/
def hid (w1 : (⟨2, ![128, 128]⟩ : Shape).Idx → EReal) (f : Fin 37 → EReal) (j : Fin 33) : EReal :=
  max (∑ k : Fin 37, w1 (ix2 (Fin.castLE (by decide : 37 ≤ 128) k) (Fin.castLE (by decide : 33 ≤ 128) j)) * f k) 0

/-- Output `c` of a cell with features `f`. -/
def outc (w1 w2 : (⟨2, ![128, 128]⟩ : Shape).Idx → EReal) (f : Fin 37 → EReal) (c : Fin 4) : EReal :=
  ∑ j : Fin 33, w2 (ix2 (Fin.castLE (by decide : 33 ≤ 128) j) (Fin.castLE (by decide : 4 ≤ 128) c)) * hid w1 f j

/-- The result array: output `c` of cell `n` at `(n, c)`. -/
def cell (x : (⟨4, ![262144, 3, 3, 4]⟩ : Shape).Idx → EReal) (w1 w2 : (⟨2, ![128, 128]⟩ : Shape).Idx → EReal) :
    (⟨2, ![262144, 4]⟩ : Shape).Idx → EReal :=
  fun i => outc w1 w2 (feat x (⟨(i 0).val, idx2_lt0 i⟩ : Fin 262144)) (⟨(i 1).val, idx2_lt1 i⟩ : Fin 4)

theorem cell_apply (x : (⟨4, ![262144, 3, 3, 4]⟩ : Shape).Idx → EReal) (w1 w2 : (⟨2, ![128, 128]⟩ : Shape).Idx → EReal)
    (n : Fin 262144) (c : Fin 4) : cell x w1 w2 (ix2 n c) = outc w1 w2 (feat x n) c := rfl

/-- A sum whose terms vanish from position `a` on is the sum of its first `a` terms. -/
theorem sum_head {M : Type*} [AddCommMonoid M] (a n : ℕ) (h : a ≤ n) (f : Fin n → M)
    (hz : ∀ i : Fin n, a ≤ i.val → f i = 0) : ∑ i, f i = ∑ i : Fin a, f (Fin.castLE h i) := by
  obtain ⟨b, rfl⟩ := Nat.exists_eq_add_of_le h
  rw [Fin.sum_univ_add, Finset.sum_eq_zero (s := Finset.univ) (f := fun i : Fin b => f (Fin.natAdd a i))
    (fun i _ => hz _ (by simp)), add_zero]
  rfl

/-- The padded arrangement: a feature row `p` of 128 entries (the 37 features, then zeros), both weight tiles whole.
    With rows `≥ 33` of the second tile zero it is `outc`. -/
theorem padded_eq_outc (w1 w2 : (⟨2, ![128, 128]⟩ : Shape).Idx → EReal) (f : Fin 37 → EReal) (p : Fin 128 → EReal)
    (c : Fin 4)
    (hp : ∀ k : Fin 37, p (Fin.castLE (by decide : 37 ≤ 128) k) = f k)
    (hp0 : ∀ k : Fin 128, 37 ≤ k.val → p k = 0)
    (hw2 : ∀ (j q : Fin 128), 33 ≤ j.val → w2 (ix2 j q) = 0) :
    ∑ j : Fin 128, max (∑ k : Fin 128, p k * w1 (ix2 k j)) 0 * w2 (ix2 j (Fin.castLE (by decide : 4 ≤ 128) c))
      = outc w1 w2 f c := by
  unfold outc hid
  rw [sum_head 33 128 (by decide) _ (fun j hj => by rw [hw2 j _ hj, mul_zero])]
  refine Finset.sum_congr rfl fun j _ => ?_
  rw [mul_comm]
  congr 2
  rw [sum_head 37 128 (by decide) _ (fun k hk => by rw [hp0 k hk, zero_mul])]
  refine Finset.sum_congr rfl fun k _ => ?_
  rw [hp k, mul_comm]

end Cert.CellSpec

end
-- ==== Proof.KernelPayload.lean ====
/-
  The lane-major body at an index, on the extended reals.

  The body stacks the block's 36 feature rows (the `[9, 4, L]` block re-read as `[36, L]`: row `k` is `(k / 4, k % 4)`)
  over a row of ones, multiplies the transpose of the first weight piece `[37, 33]` into it, clamps at zero and multiplies the
  transpose of the second weight piece `[33, 4]` into that. At output `(c, l)` this is
  `∑ j, v9 (j, c) * max (∑ k, v5 (k, j) * (stacked rows) (k, l)) 0`.
-/
import proofs.«133119_g2000406002863626_pallasbulk_611_23_alg».proof.Proof.Gen.KernelIdeal.Skeleton
import proofs.«133119_g2000406002863626_pallasbulk_611_23_alg».proof.Proof.LibDotCols
import proofs.«133119_g2000406002863626_pallasbulk_611_23_alg».proof.Proof.CellSpec
import Idealize.ShloMosaic.Lib.Pipeline.Value
import Idealize.ShloMosaic.Lib.ValueIdx

set_option maxRecDepth 16384

noncomputable section

namespace Cert.KernelIdeal.KValue

open Idealize.ShloMosaic Idealize.ShloMosaic.ValueIdx
open Cert.KernelIdeal Cert.KernelIdeal.Gen Cert.LibDotCols Cert.CellSpec

/-- Row `k`, lane `l` of the stacked rows: the block's entry `(k / 4, k % 4, l)` for `k < 36`, the constant for `k = 36`. -/
def stacked (x0 : S9x4x65536.Idx → EReal) (k : Fin 37) (l : Fin 65536) : EReal :=
  if h : k.val < 36 then x0 (ix3 (⟨k.val / 4, by omega⟩ : Fin 9) (⟨k.val % 4, by omega⟩ : Fin 4) l) else oneWord

/-- The body's concatenation read at `(k, l)`. -/
theorem stacked_apply (x0 : Vec Ideal S9x4x65536 .f32) (k : Fin 37) (l : Fin 65536) :
    concatenate S37x65536 0 [⟨S36x65536, shapeCast S36x65536 (shapeCast S9x4x65536 x0 shapeCasts_S9x4x65536_S9x4x65536) shapeCasts_S9x4x65536_S36x65536⟩,
        ⟨S1x65536, broadcast S1x65536 (Scalar.ofBits (F := Ideal) .f32 0x3F800000#32)⟩] concatenates_S36x65536_S1x65536_S37x65536_d0 (ix2 k l)
      = stacked x0 k l := by
  unfold stacked
  by_cases h : k.val < 36
  · rw [dif_pos h]
    refine (concatenate_pair_apply_left (t := S37x65536) (s₁ := S36x65536) (s₂ := S1x65536) (0 : Fin 2) _ _ concatenates_S36x65536_S1x65536_S37x65536_d0 (ix2 k l) rfl
      (ix2 (⟨k.val, h⟩ : Fin 36) l) (fun b => by match b with | ⟨0, _⟩ => rfl | ⟨1, _⟩ => rfl)).trans ?_
    rw [shapeCast_self]
    refine shapeCast_apply x0 shapeCasts_S9x4x65536_S36x65536 _ _ ?_
    rw [Shape.rowMajor_val_three, Shape.rowMajor_val_two]
    show ((k.val / 4) * 4 + k.val % 4) * 65536 + l.val = k.val * 65536 + l.val
    omega
  · rw [dif_neg h]
    have hk : k.val = 36 := by have := k.isLt; omega
    exact concatenate_pair_apply_right (t := S37x65536) (s₁ := S36x65536) (s₂ := S1x65536) (0 : Fin 2) _ _ concatenates_S36x65536_S1x65536_S37x65536_d0 (ix2 k l) rfl rfl
      (ix2 (0 : Fin 1) l) (fun b hb => by match b with | ⟨0, _⟩ => exact absurd rfl hb | ⟨1, _⟩ => rfl)
      (by show 0 + 36 = k.val; omega)

/-- The body's stored value at `(c, l)`. -/
theorem pay_apply (x0 : Vec Ideal S9x4x65536 .f32) (v5 : Vec Ideal S37x33 .f32) (v9 : Vec Ideal S33x4 .f32)
    (c : Fin 4) (l : Fin 65536) :
    k0_pay1 x0 v5 v9 (ix2 c l)
      = ∑ j : Fin 33, v9 (ix2 j c) * max (∑ k : Fin 37, v5 (ix2 k j) * stacked x0 k l) 0 := by
  unfold k0_pay1
  refine (congrFun (matmul_zero_cols (K := 33) (M := 4) (N := 65536) none v9 _) (ix2 c l)).trans ?_
  rw [colsTimes_apply]
  refine Finset.sum_congr rfl fun j _ => ?_
  congr 1
  show max (FloatOps.matmul (colsDims 37 33 65536) none v5 _ (constant S33x65536 .f32 0x00000000#32) (ix2 j l)) (Ideal.ofBits .f32 0x00000000#32) = _
  rw [Ideal.ofBits_zero_f32]
  congr 1
  refine (congrFun (matmul_zero_cols (K := 37) (M := 33) (N := 65536) none v5 _) (ix2 j l)).trans ?_
  rw [colsTimes_apply]
  refine Finset.sum_congr rfl fun k _ => ?_
  congr 1
  exact stacked_apply x0 k l

end Cert.KernelIdeal.KValue

end
-- ==== Proof.KernelValue.lean ====
/-
  What the lane-major program's result array holds after its run, on the extended reals.

  The region finds the neighbourhoods feature-major: entry `(a, ci, n)` of the `[9, 4, N]` view is entry
  `(n, a / 3, a % 3, ci)` of the argument. Grid point `t` sees lanes `t * 65536 … t * 65536 + 65535` of it and the two weight
  tiles whole, and writes back columns `t * 65536 …` of a `[4, N]` array: column `n` holds the four outputs of cell `n`
  (`CellSpec.outc` of its features). The four blocks tile that array, and the host's final transpose makes it `CellSpec.cell`.
-/
import proofs.«133119_g2000406002863626_pallasbulk_611_23_alg».proof.Proof.Gen.KernelIdeal.Frame
import proofs.«133119_g2000406002863626_pallasbulk_611_23_alg».proof.Proof.KernelPayload
import proofs.«133119_g2000406002863626_pallasbulk_611_23_alg».proof.Proof.CellSpec
import Idealize.ShloMosaic.Lib.Pipeline.Value
import Idealize.ShloMosaic.Lib.ValueIdx
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.CellSpec

variable (m : (ℓ : Loc nD τ sig) → Buf (Elt Ideal) ℓ) (ρ : Dev nD → PrngReg)

/-! ## The feature-major view the region finds -/

/-- The region's first operand is the host's transpose and reshape of the neighbourhoods. -/
theorem view_eq (c : Dev nD) :
    (V m c main_v1 : S9x4x262144.Idx → EReal)
      = shapeCast S9x4x262144 (transpose S3x3x4x262144 [1, 2, 3, 0] (m ((c : Thread nD τ).loc main_arg0))
          transposes_S262144x3x3x4_S3x3x4x262144_1_2_3_0) shapeCasts_S3x3x4x262144_S9x4x262144 := by
  show StableHlo.after hostOps0 (fun b => m (c, b)) (Proc.devRef .tc main_v1) = _
  after_results
  rfl

/-- Entry `(a, ci, n)` of the view is entry `(n, a / 3, a % 3, ci)` of the neighbourhoods. -/
theorem view_apply (c : Dev nD) (a : Fin 9) (ci : Fin 4) (n : Fin 262144) :
    (V m c main_v1 : S9x4x262144.Idx → EReal) (ix3 a ci n)
      = (m ((c : Thread nD τ).loc main_arg0) : S262144x3x3x4.Idx → EReal)
          (ix4 n (⟨a.val / 3, by omega⟩ : Fin 3) (⟨a.val % 3, by omega⟩ : Fin 3) ci) := by
  rw [view_eq]
  refine (shapeCast_apply _ shapeCasts_S3x3x4x262144_S9x4x262144 (ix3 a ci n)
    (ix4 (⟨a.val / 3, by omega⟩ : Fin 3) (⟨a.val % 3, by omega⟩ : Fin 3) ci n) ?_).trans ?_
  · rw [Shape.rowMajor_val_four, Shape.rowMajor_val_three]
    show (((a.val / 3) * 3 + a.val % 3) * 4 + ci.val) * 262144 + n.val = (a.val * 4 + ci.val) * 262144 + n.val
    omega
  · exact transpose_apply [1, 2, 3, 0] _ transposes_S262144x3x3x4_S3x3x4x262144_1_2_3_0 _
      (ix4 n (⟨a.val / 3, by omega⟩ : Fin 3) (⟨a.val % 3, by omega⟩ : Fin 3) ci)
      (fun b => by match b with | ⟨0, _⟩ => rfl | ⟨1, _⟩ => rfl | ⟨2, _⟩ => rfl | ⟨3, _⟩ => rfl)

/-! ## The windows' blocks at a point -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the view's block moves along its lanes with the point, the weight tiles stay,
    the output's block moves along its columns with the point. -/
theorem idx_facts : ∀ t : Fin cfg0.N, win0_0.index t (0 : Fin 3) = 0 ∧ win0_0.index t (1 : Fin 3) = 0
    ∧ win0_0.index t (2 : Fin 3) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val ∧ t.val < 4 :=
  (by decide +kernel : ∀ t : Fin grid0.N, _)

/-- Lane `l` of the view's block at point `t` is lane `t * 65536 + l` of the view. -/
theorem blk0_apply (c : Dev nD) (t : Fin cfg0.N) (a : Fin 9) (ci : Fin 4) (l : Fin 65536) (n : Fin 262144)
    (hn : n.val = t.val * 65536 + l.val) :
    (iblk m c 0 t : S9x4x65536.Idx → EReal) (ix3 a ci l) = (V m c main_v1 : S9x4x262144.Idx → EReal) (ix3 a ci n) := by
  obtain ⟨e0, e1, e2, -⟩ := idx_facts t
  show V m c main_v1 (((cfg0.win 0).blk t).view.emb (ix3 a ci l)) = _
  refine congrArg _ (funext fun b => Fin.ext ?_)
  match b with
  | ⟨0, _⟩ => show win0_0.index t (0 : Fin 3) * 9 + 1 * a.val = a.val; omega
  | ⟨1, _⟩ => show win0_0.index t (1 : Fin 3) * 4 + 1 * ci.val = ci.val; omega
  | ⟨2, _⟩ => show win0_0.index t (2 : Fin 3) * 65536 + 1 * l.val = n.val; omega

/-- The piece `[37, 33]` the body loads of the first weight tile is the top-left corner of the argument. -/
theorem blk1_apply (c : Dev nD) (t : Fin cfg0.N) (k : Fin 37) (j : Fin 33) :
    (View.ld (iblk m c 1 t : S128x128.Idx → EReal) r0_1 : S37x33.Idx → EReal) (ix2 k j)
      = (m ((c : Thread nD τ).loc main_arg1) : S128x128.Idx → EReal)
          (ix2 (Fin.castLE (by decide : 37 ≤ 128) k) (Fin.castLE (by decide : 33 ≤ 128) j)) := by
  obtain ⟨-, -, -, e0, e1, -⟩ := idx_facts t
  rw [← V_main_arg1 m c]
  show V m c main_arg1 (((cfg0.win 1).blk t).view.emb (r0_1.emb (ix2 k j))) = _
  refine congrArg _ (funext fun b => Fin.ext ?_)
  match b with
  | ⟨0, _⟩ => show win0_1.index t (0 : Fin 2) * 128 + 1 * (0 + 1 * k.val) = k.val; omega
  | ⟨1, _⟩ => show win0_1.index t (1 : Fin 2) * 128 + 1 * (0 + 1 * j.val) = j.val; omega

/-- The piece `[33, 4]` the body loads of the second weight tile is the top-left corner of the argument. -/
theorem blk2_apply (c : Dev nD) (t : Fin cfg0.N) (j : Fin 33) (q : Fin 4) :
    (View.ld (iblk m c 2 t : S128x128.Idx → EReal) r0_2 : S33x4.Idx → EReal) (ix2 j q)
      = (m ((c : Thread nD τ).loc main_arg2) : S128x128.Idx → EReal)
          (ix2 (Fin.castLE (by decide : 33 ≤ 128) j) (Fin.castLE (by decide : 4 ≤ 128) q)) := by
  obtain ⟨-, -, -, -, -, e0, e1, -⟩ := idx_facts t
  rw [← V_main_arg2 m c]
  show V m c main_arg2 (((cfg0.win 2).blk t).view.emb (r0_2.emb (ix2 j q))) = _
  refine congrArg _ (funext fun b => Fin.ext ?_)
  match b with
  | ⟨0, _⟩ => show win0_2.index t (0 : Fin 2) * 128 + 1 * (0 + 1 * j.val) = j.val; omega
  | ⟨1, _⟩ => show win0_2.index t (1 : Fin 2) * 128 + 1 * (0 + 1 * q.val) = q.val; omega

/-- The rows the body stacks at point `t`, lane `l`, are the features of cell `t * 65536 + l`. -/
theorem stacked_blk (c : Dev nD) (t : Fin cfg0.N) (l : Fin 65536) (n : Fin 262144) (hn : n.val = t.val * 65536 + l.val)
    (k : Fin 37) :
    stacked (iblk m c 0 t : S9x4x65536.Idx → EReal) k l = feat (m ((c : Thread nD τ).loc main_arg0)) n k := by
  unfold stacked feat
  by_cases h : k.val < 36
  · rw [dif_pos h, dif_pos h]
    refine (blk0_apply m c t _ _ l n hn).trans ((view_apply m c _ _ n).trans ?_)
    refine congrArg _ (funext fun b => Fin.ext ?_)
    match b with
    | ⟨0, _⟩ => rfl
    | ⟨1, _⟩ => show k.val / 4 / 3 = k.val / 12; omega
    | ⟨2, _⟩ => rfl
    | ⟨3, _⟩ => rfl
  · rw [dif_neg h, dif_neg h]

/-! ## What a point writes back, and the array after the run -/

/-- The `[4, N]` array the region leaves: column `n` holds the outputs of cell `n`. -/
def G (x : S262144x3x3x4.Idx → EReal) (w1 w2 : S128x128.Idx → EReal) : S4x262144.Idx → EReal :=
  fun i => outc w1 w2 (feat x (⟨(i 1).val, idx2_lt1 i⟩ : Fin 262144)) (⟨(i 0).val, idx2_lt0 i⟩ : Fin 4)

theorem G_apply (x : S262144x3x3x4.Idx → EReal) (w1 w2 : S128x128.Idx → EReal) (q : Fin 4) (n : Fin 262144) :
    G x w1 w2 (ix2 q n) = outc w1 w2 (feat x n) q := rfl

/-- What point `t` writes back is block `t` of `G` of the arguments. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz2]
  simp only [View.ld_unit_zero (S := S9x4x65536) hz3]
  obtain ⟨-, -, -, -, -, -, -, e0, e1, e2⟩ := idx_facts t
  funext y
  obtain ⟨q, l, rfl⟩ : ∃ (q : Fin 4) (l : Fin 65536), y = ix2 q l := ⟨y 0, y 1, eq_ix2 y⟩
  refine (pay_apply _ _ _ q l).trans ?_
  have hlt : t.val * 65536 + l.val < 262144 := by have := l.isLt; omega
  have hemb : ((cfg0.win 3).blk t).view.emb (ix2 q l) = ix2 q (⟨t.val * 65536 + l.val, hlt⟩ : Fin 262144) := by
    funext b; apply Fin.ext
    match b with
    | ⟨0, _⟩ => show win0_3.index t (0 : Fin 2) * 4 + 1 * q.val = q.val; omega
    | ⟨1, _⟩ => show win0_3.index t (1 : Fin 2) * 65536 + 1 * l.val = t.val * 65536 + l.val; omega
  show _ = G _ _ _ (((cfg0.win 3).blk t).view.emb (ix2 q l))
  rw [hemb, G_apply]
  unfold outc hid
  refine Finset.sum_congr rfl fun j _ => ?_
  refine congrArg₂ (· * ·) (blk2_apply m c t j q) (congrArg (max · 0) (Finset.sum_congr rfl fun k _ => ?_))
  exact congrArg₂ (· * ·) (blk1_apply m c t k j) (stacked_blk m c t l _ rfl k)

/-- An index of the array is in point `t`'s block iff each coordinate is in the block's range on its axis. -/
theorem mem_blk (t : Fin cfg0.N) (i : S4x262144.Idx) :
    i ∈ ((cfg0.win 3).blk t).view.set ↔ ∀ a : Fin 2, win0_3.index t a * S4x65536.size a ≤ (i a).val ∧ (i a).val < win0_3.index t a * S4x65536.size a + S4x65536.size a := by
  show i ∈ ((View.whole main_v2).slice (win0_3.rect t)).set ↔ _
  rw [View.set_slice_whole, Rect.mem_set_unit]
  exact Iff.rfl

/-- Every block of columns is some point's. -/
theorem idx_onto : ∀ q : Fin 4, ∃ t : Fin cfg0.N, win0_3.index t = ![0, q.val] :=
  (by decide +kernel : ∀ q : Fin 4, ∃ t : Fin grid0.N, win0_3.index t = ![0, q.val])

/-- The four blocks cover the array: column `n` is in the block of point `n / 65536`. -/
theorem cover (i : S4x262144.Idx) :
    ∃ t : Fin cfg0.N, (cfg0.win 3).flush t = true ∧ i ∈ ((cfg0.win 3).blk t).view.set := by
  have hi0 : (i 0).val < 4 := (i 0).isLt
  have hi1 : (i 1).val < 262144 := (i 1).isLt
  obtain ⟨t, ht⟩ := idx_onto ⟨(i 1).val / 65536, by omega⟩
  have q0 : win0_3.index t (0 : Fin 2) = 0 := congrFun ht 0
  have q1 : win0_3.index t (1 : Fin 2) = (i 1).val / 65536 := congrFun ht 1
  refine ⟨t, flush0_3 t, ?_⟩
  rw [mem_blk]
  intro a
  match a with
  | ⟨0, _⟩ => show win0_3.index t (0 : Fin 2) * 4 ≤ (i 0).val ∧ (i 0).val < win0_3.index t (0 : Fin 2) * 4 + 4; omega
  | ⟨1, _⟩ => show win0_3.index t (1 : Fin 2) * 65536 ≤ (i 1).val ∧ (i 1).val < win0_3.index t (1 : Fin 2) * 65536 + 65536; omega

/-- The region's output array after the run. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

/-! ## The host's transpose after the region, and the run -/

/-- The program's result is the transpose of the region's output array: `CellSpec.cell` of the arguments. -/
theorem result_eq (c : Dev nD) :
    (Pipeline.afterTail₀ cfgs (dats m) 0 (V0 m) [hostOps1] c main_v3 : S262144x4.Idx → EReal)
      = cell (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  have hw : (Pipeline.withArrays (cfgs 0).spec c (V0 m c) (fun w => (dats m 0 c).arrAt w (cfgs 0).N) (Proc.devRef .tc main_v2) : S4x262144.Idx → EReal)
      = G (m ((c : Thread nD τ).loc main_arg0)) (m ((c : Thread nD τ).loc main_arg1)) (m ((c : Thread nD τ).loc main_arg2)) :=
    (Pipeline.withArrays_arr spec0 launch0.win.arr_inj c _ _ 3).trans (final m c)
  funext i
  obtain ⟨n, q, rfl⟩ : ∃ (n : Fin 262144) (q : Fin 4), i = ix2 n q := ⟨i 0, i 1, eq_ix2 i⟩
  refine (transpose_apply [1, 0] _ transposes_S4x262144_S262144x4_1_0 (ix2 n q) (ix2 q n)
    (fun b => by match b with | ⟨0, _⟩ => rfl | ⟨1, _⟩ => rfl)).trans ?_
  rw [hw]
  rfl

/-- Every weakly fair execution ends with the result at `CellSpec.cell` of the arguments and the arguments unchanged. -/
theorem run : θ_run defs (onTc (τ := τ) (main (F := Ideal))) ⟨m, fun _ => 0, ρ⟩ (fun r => ∀ c : Dev nD,
      r.2.mem ((c.tc : Thread nD τ).loc main_v3)
        = cell (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c)))⟩)
    (run_main m ρ)

end Cert.KernelIdeal.KValue

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.RefPayload.lean ====
/-
  The row-major body at an index, on the extended reals.

  The body multiplies a `[256, 128]` block of padded feature rows by the whole first weight tile, clamps at zero and
  multiplies by the whole second weight tile. At output `(r, q)` this is
  `∑ j, max (∑ k, x0 (r, k) * v2 (k, j)) 0 * v6 (j, q)`, both sums over all 128 positions.
-/
import proofs.«133119_g2000406002863626_pallasbulk_611_23_alg».proof.Proof.Gen.ReferenceIdeal.Skeleton
import proofs.«133119_g2000406002863626_pallasbulk_611_23_alg».proof.Proof.LibPlainDot
import Idealize.ShloMosaic.Lib.Pipeline.Value
import Idealize.ShloMosaic.Lib.ValueIdx

set_option maxRecDepth 16384

noncomputable section

namespace Cert.ReferenceIdeal.RValue

open Idealize.ShloMosaic Idealize.ShloMosaic.ValueIdx
open Cert.ReferenceIdeal Cert.ReferenceIdeal.Gen Cert.LibPlainDot

/-- The body's stored value at `(r, q)`. -/
theorem pay_apply (x0 : Vec Ideal S256x128 .f32) (v2 : Vec Ideal S128x128 .f32) (v6 : Vec Ideal S128x128 .f32)
    (r : Fin 256) (q : Fin 128) :
    k0_pay1 x0 v2 v6 (ix2 r q)
      = ∑ j : Fin 128, max (∑ k : Fin 128, x0 (ix2 r k) * v2 (ix2 k j)) 0 * v6 (ix2 j q) := by
  unfold k0_pay1
  refine (congrFun (matmul_zero_plain (M := 256) (K := 128) (N := 128) none _ v6) (ix2 r q)).trans ?_
  rw [rowsTimes_apply]
  refine Finset.sum_congr rfl fun j _ => ?_
  congr 1
  show max (FloatOps.matmul (DotDims.plain 256 128 128) none _ v2 (constant S256x128 .f32 0x00000000#32) (ix2 r j)) (Ideal.ofBits .f32 0x00000000#32) = _
  rw [Ideal.ofBits_zero_f32]
  congr 1
  refine (congrFun (matmul_zero_plain (M := 256) (K := 128) (N := 128) none _ v2) (ix2 r j)).trans ?_
  rw [rowsTimes_apply, shapeCast_self]

end Cert.ReferenceIdeal.RValue

end
-- ==== Proof.RefValue.lean ====
/-
  What the row-major program's result array holds after its run, on the extended reals.

  The host lays each cell's 36 features out as a row, appends the constant one and pads the row with zeros to 128
  entries (`prow`). Grid point `t` sees rows `t * 256 … t * 256 + 255` and both weight tiles whole, and writes back
  the same rows of a `[N, 128]` array whose entry `(n, q)` is `∑ j, max (∑ k, prow n k * w1 (k, j)) 0 * w2 (j, q)`, both
  sums over all 128 positions. The 1024 blocks tile that array, and the host keeps its first four columns (`refOut`).
  When rows `≥ 33` of the second weight tile are zero, `refOut` is `CellSpec.cell` (`CellSpec.padded_eq_outc`).
-/
import proofs.«133119_g2000406002863626_pallasbulk_611_23_alg».proof.Proof.Gen.ReferenceIdeal.Frame
import proofs.«133119_g2000406002863626_pallasbulk_611_23_alg».proof.Proof.RefPayload
import proofs.«133119_g2000406002863626_pallasbulk_611_23_alg».proof.Proof.CellSpec
import Idealize.ShloMosaic.Lib.Pipeline.Value
import Idealize.ShloMosaic.Lib.KernelVsHost
import Idealize.ShloMosaic.Lib.ValueIdx
import Idealize.ShloMosaic.Lib.StableHlo.Run

set_option maxRecDepth 16384

noncomputable section

namespace Cert.ReferenceIdeal.RValue

open Idealize.ShloMosaic Idealize.ShloMosaic.TcCoe Idealize.ShloMosaic.ValueIdx Idealize.SL.Sem
open Idealize.ShloMosaic.Pipeline (Dat)
open Cert.ReferenceIdeal Cert.ReferenceIdeal.Gen Cert.CellSpec

variable (m : (ℓ : Loc nD τ sig) → Buf (Elt Ideal) ℓ) (ρ : Dev nD → PrngReg)

/-! ## The padded feature rows the region finds -/

/-- Entry `k` of cell `n`'s padded row: its features, then zeros. -/
def prow (x : S262144x3x3x4.Idx → EReal) (n : Fin 262144) (k : Fin 128) : EReal :=
  if h : k.val < 37 then feat x n ⟨k.val, h⟩ else 0

/-- The region's first operand is the host's reshape, concatenation with ones and padding of the neighbourhoods. -/
theorem rows_eq (c : Dev nD) :
    (V m c main_call0_v3 : S262144x128.Idx → EReal)
      = pad S262144x128 ![0, 0] ![0, 91] ![0, 0]
          (concatenate S262144x37 1 [⟨S262144x36, shapeCast S262144x36 (m ((c : Thread nD τ).loc main_arg0)) shapeCasts_S262144x3x3x4_S262144x36⟩,
            ⟨S262144x1, broadcastInDim S262144x1 ![] bcast_S_S262144x1 (constant (F := Ideal) S_ .f32 0x3F800000#32)⟩]
            concatenates_S262144x36_S262144x1_S262144x37_d1)
          (sitofp (F := Ideal) .f32 (constantI S_ 32 0#32)) pads_S262144x37_S262144x128_000_0910 h_S_ := by
  show StableHlo.after hostOps0 (fun b => m (c, b)) (Proc.devRef .tc main_call0_v3) = _
  after_results
  rfl

/-- Entry `(n, k)` of it is entry `k` of cell `n`'s padded row. -/
theorem rows_apply (c : Dev nD) (n : Fin 262144) (k : Fin 128) :
    (V m c main_call0_v3 : S262144x128.Idx → EReal) (ix2 n k) = prow (m ((c : Thread nD τ).loc main_arg0)) n k := by
  rw [rows_eq]
  unfold prow
  by_cases h : k.val < 37
  · rw [dif_pos h]
    refine (pad_apply_of_inside (s := S262144x37) (t := S262144x128) ![0, 0] ![0, 91] ![0, 0] _ _ pads_S262144x37_S262144x128_000_0910 h_S_
      (ix2 n k) (ix2 n (⟨k.val, h⟩ : Fin 37)) (fun a => by
        match a with
        | ⟨0, _⟩ => show n.val = 0 + n.val * (0 + 1); omega
        | ⟨1, _⟩ => show k.val = 0 + k.val * (0 + 1); omega)).trans ?_
    unfold feat
    by_cases h' : k.val < 36
    · rw [dif_pos h']
      refine (concatenate_pair_apply_left (t := S262144x37) (s₁ := S262144x36) (s₂ := S262144x1) (1 : Fin 2) _ _
        concatenates_S262144x36_S262144x1_S262144x37_d1 (ix2 n (⟨k.val, h⟩ : Fin 37)) rfl (ix2 n (⟨k.val, h'⟩ : Fin 36))
        (fun b => by match b with | ⟨0, _⟩ => rfl | ⟨1, _⟩ => rfl)).trans ?_
      refine shapeCast_apply _ shapeCasts_S262144x3x3x4_S262144x36 _ _ ?_
      rw [Shape.rowMajor_val_four, Shape.rowMajor_val_two]
      show ((n.val * 3 + k.val / 12) * 3 + k.val / 4 % 3) * 4 + k.val % 4 = n.val * 36 + k.val
      omega
    · rw [dif_neg h']
      refine (concatenate_pair_apply_right (t := S262144x37) (s₁ := S262144x36) (s₂ := S262144x1) (1 : Fin 2) _ _
        concatenates_S262144x36_S262144x1_S262144x37_d1 (ix2 n (⟨k.val, h⟩ : Fin 37)) rfl rfl (ix2 n (0 : Fin 1))
        (fun b hb => by match b with | ⟨0, _⟩ => rfl | ⟨1, _⟩ => exact absurd rfl hb)
        (by show 0 + 36 = k.val; omega)).trans ?_
      exact broadcastInDim_apply (s := S_) (t := S262144x1) ![] bcast_S_S262144x1 _ (ix2 n (0 : Fin 1)) ix0 (fun a => a.elim0)
  · rw [dif_neg h]
    refine (pad_apply_of_not_inside (s := S262144x37) (t := S262144x128) ![0, 0] ![0, 91] ![0, 0] _ _ pads_S262144x37_S262144x128_000_0910 h_S_
      (ix2 n k) (1 : Fin 2) (fun hh => h (by
        have h3 : (k.val - 0) / (0 + 1) < 37 := hh.2.2
        simpa using h3))).trans ?_
    show (((0#32 : BitVec 32).toInt : ℝ) : EReal) = 0
    simp

/-! ## The windows' blocks at a point -/

theorem hz2 : (![0, 0] : Fin 2 → Nat) = fun _ => 0 := funext fun a => by fin_cases a <;> rfl

/-- The printed index maps over the grid: the rows' block and the output's block move down with the point, the weight
    tiles stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 1024 :=
  (by decide +kernel : ∀ t : Fin grid0.N, _)

/-- Row `r` of the rows' block at point `t` is row `t * 256 + r` of the padded rows. -/
theorem blk0_apply (c : Dev nD) (t : Fin cfg0.N) (r : Fin 256) (k : Fin 128) (n : Fin 262144)
    (hn : n.val = t.val * 256 + r.val) :
    (iblk m c 0 t : S256x128.Idx → EReal) (ix2 r k) = (V m c main_call0_v3 : S262144x128.Idx → EReal) (ix2 n k) := by
  obtain ⟨e0, e1, -⟩ := idx_facts t
  show V m c main_call0_v3 (((cfg0.win 0).blk t).view.emb (ix2 r k)) = _
  refine congrArg _ (funext fun b => Fin.ext ?_)
  match b with
  | ⟨0, _⟩ => show win0_0.index t (0 : Fin 2) * 256 + 1 * r.val = n.val; omega
  | ⟨1, _⟩ => show win0_0.index t (1 : Fin 2) * 128 + 1 * k.val = k.val; omega

/-- The first weight tile's block is the argument, at every point. -/
theorem blk1_apply (c : Dev nD) (t : Fin cfg0.N) (k j : Fin 128) :
    (iblk m c 1 t : S128x128.Idx → EReal) (ix2 k j) = (m ((c : Thread nD τ).loc main_arg1) : S128x128.Idx → EReal) (ix2 k j) := by
  obtain ⟨-, -, e0, e1, -⟩ := idx_facts t
  rw [← V_main_arg1 m c]
  show V m c main_arg1 (((cfg0.win 1).blk t).view.emb (ix2 k j)) = _
  refine congrArg _ (funext fun b => Fin.ext ?_)
  match b with
  | ⟨0, _⟩ => show win0_1.index t (0 : Fin 2) * 128 + 1 * k.val = k.val; omega
  | ⟨1, _⟩ => show win0_1.index t (1 : Fin 2) * 128 + 1 * j.val = j.val; omega

/-- The second weight tile's block is the argument, at every point. -/
theorem blk2_apply (c : Dev nD) (t : Fin cfg0.N) (j q : Fin 128) :
    (iblk m c 2 t : S128x128.Idx → EReal) (ix2 j q) = (m ((c : Thread nD τ).loc main_arg2) : S128x128.Idx → EReal) (ix2 j q) := by
  obtain ⟨-, -, -, -, e0, e1, -⟩ := idx_facts t
  rw [← V_main_arg2 m c]
  show V m c main_arg2 (((cfg0.win 2).blk t).view.emb (ix2 j q)) = _
  refine congrArg _ (funext fun b => Fin.ext ?_)
  match b with
  | ⟨0, _⟩ => show win0_2.index t (0 : Fin 2) * 128 + 1 * j.val = j.val; omega
  | ⟨1, _⟩ => show win0_2.index t (1 : Fin 2) * 128 + 1 * q.val = q.val; omega

/-! ## What a point writes back, and the array after the run -/

/-- The `[N, 128]` array the region leaves. -/
def Gr (x : S262144x3x3x4.Idx → EReal) (w1 w2 : S128x128.Idx → EReal) : S262144x128.Idx → EReal :=
  fun i => ∑ j : Fin 128, max (∑ k : Fin 128, prow x (⟨(i 0).val, idx2_lt0 i⟩ : Fin 262144) k * w1 (ix2 k j)) 0
    * w2 (ix2 j (⟨(i 1).val, idx2_lt1 i⟩ : Fin 128))

theorem Gr_apply (x : S262144x3x3x4.Idx → EReal) (w1 w2 : S128x128.Idx → EReal) (n : Fin 262144) (q : Fin 128) :
    Gr x w1 w2 (ix2 n q) = ∑ j : Fin 128, max (∑ k : Fin 128, prow x n k * w1 (ix2 k j)) 0 * w2 (ix2 j q) := rfl

/-- What point `t` writes back is block `t` of `Gr` of the arguments. -/
theorem flushed_eq (c : Dev nD) (t : Fin cfg0.N) :
    (dats m 0 c).flushed 3 t = ((cfg0.win 3).blk t).view.read (Elt Ideal)
      (Gr (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz2]
  simp only [View.ld_unit_zero (S := S256x128) hz2, View.ld_unit_zero (S := S128x128) hz2]
  obtain ⟨-, -, -, -, -, -, e0, e1, e2⟩ := idx_facts t
  funext y
  obtain ⟨r, q, rfl⟩ : ∃ (r : Fin 256) (q : Fin 128), y = ix2 r q := ⟨y 0, y 1, eq_ix2 y⟩
  refine (pay_apply _ _ _ r q).trans ?_
  have hlt : t.val * 256 + r.val < 262144 := by have := r.isLt; omega
  have hemb : ((cfg0.win 3).blk t).view.emb (ix2 r q) = ix2 (⟨t.val * 256 + r.val, hlt⟩ : Fin 262144) q := by
    funext b; apply Fin.ext
    match b with
    | ⟨0, _⟩ => show win0_3.index t (0 : Fin 2) * 256 + 1 * r.val = t.val * 256 + r.val; omega
    | ⟨1, _⟩ => show win0_3.index t (1 : Fin 2) * 128 + 1 * q.val = q.val; omega
  show _ = Gr _ _ _ (((cfg0.win 3).blk t).view.emb (ix2 r q))
  rw [hemb, Gr_apply]
  refine Finset.sum_congr rfl fun j _ => ?_
  refine congrArg₂ (· * ·) (congrArg (max · 0) (Finset.sum_congr rfl fun k _ => ?_)) (blk2_apply m c t j q)
  exact congrArg₂ (· * ·) ((blk0_apply m c t r k _ rfl).trans (rows_apply m c _ k)) (blk1_apply m c t k j)

/-- An index of the array is in point `t`'s block iff each coordinate is in the block's range on its axis. -/
theorem mem_blk (t : Fin cfg0.N) (i : S262144x128.Idx) :
    i ∈ ((cfg0.win 3).blk t).view.set ↔ ∀ a : Fin 2, win0_3.index t a * S256x128.size a ≤ (i a).val ∧ (i a).val < win0_3.index t a * S256x128.size a + S256x128.size a := by
  show i ∈ ((View.whole main_call0_v4).slice (win0_3.rect t)).set ↔ _
  rw [View.set_slice_whole, Rect.mem_set_unit]
  exact Iff.rfl

/-- The 1024 blocks cover the array: row `n` is in the block of point `n / 256`. -/
theorem cover (i : S262144x128.Idx) :
    ∃ t : Fin cfg0.N, (cfg0.win 3).flush t = true ∧ i ∈ ((cfg0.win 3).blk t).view.set := by
  have hi0 : (i 0).val < 262144 := (i 0).isLt
  have hi1 : (i 1).val < 128 := (i 1).isLt
  have hN : cfg0.N = 1024 := N_0
  let t : Fin cfg0.N := ⟨(i 0).val / 256, by rw [hN]; omega⟩
  obtain ⟨-, -, -, -, -, -, q0, q1, -⟩ := idx_facts t
  have ht : t.val = (i 0).val / 256 := rfl
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 128 ≤ (i 1).val ∧ (i 1).val < win0_3.index t (1 : Fin 2) * 128 + 128; omega

/-- The region's output array after the run. -/
theorem final (c : Dev nD) : (dats m 0 c).arrAt 3 cfg0.N
    = Gr (m ((c : Thread nD τ).loc main_arg0)) (m ((c : Thread nD τ).loc main_arg1)) (m ((c : Thread nD τ).loc main_arg2)) :=
  (dats m 0 c).arrAt_eq_of_cover 3 _ (fun t _ => flushed_eq m c t) cover

/-! ## The host's slice after the region, and the run -/

/-- The first four columns of `Gr`. -/
def refOut (x : S262144x3x3x4.Idx → EReal) (w1 w2 : S128x128.Idx → EReal) : S262144x4.Idx → EReal :=
  fun i => Gr x w1 w2 (ix2 (⟨(i 0).val, idx2_lt0 i⟩ : Fin 262144) (Fin.castLE (by decide : 4 ≤ 128) (⟨(i 1).val, idx2_lt1 i⟩ : Fin 4)))

/-- With rows `≥ 33` of the second weight tile zero, that is `CellSpec.cell`. -/
theorem refOut_eq_cell (x : S262144x3x3x4.Idx → EReal) (w1 w2 : S128x128.Idx → EReal)
    (hw2 : ∀ (j q : Fin 128), 33 ≤ j.val → w2 (ix2 j q) = 0) : refOut x w1 w2 = cell x w1 w2 := by
  funext i
  obtain ⟨n, q, rfl⟩ : ∃ (n : Fin 262144) (q : Fin 4), i = ix2 n q := ⟨i 0, i 1, eq_ix2 i⟩
  show Gr x w1 w2 (ix2 n (Fin.castLE (by decide : 4 ≤ 128) q)) = outc w1 w2 (feat x n) q
  rw [Gr_apply]
  refine padded_eq_outc w1 w2 (feat x n) (prow x n) q (fun k => ?_) (fun k hk => ?_) hw2
  · unfold prow
    rw [dif_pos (show (Fin.castLE (by decide : 37 ≤ 128) k).val < 37 from k.isLt)]
    rfl
  · unfold prow
    rw [dif_neg (by omega)]

/-- The program's result is the first four columns of the region's output array. -/
theorem result_eq (c : Dev nD) :
    (Pipeline.afterTail₀ cfgs (dats m) 0 (V0 m) [hostOps1] c main_v0 : S262144x4.Idx → EReal)
      = refOut (m ((c : Thread nD τ).loc main_arg0)) (m ((c : Thread nD τ).loc main_arg1)) (m ((c : Thread nD τ).loc main_arg2)) := by
  unfold Pipeline.afterTail₀
  show StableHlo.after hostOps1 _ (Proc.devRef .tc main_v0) = _
  after_results
  have hw : (Pipeline.withArrays (cfgs 0).spec c (V0 m c) (fun w => (dats m 0 c).arrAt w (cfgs 0).N) (Proc.devRef .tc main_call0_v4) : S262144x128.Idx → EReal)
      = Gr (m ((c : Thread nD τ).loc main_arg0)) (m ((c : Thread nD τ).loc main_arg1)) (m ((c : Thread nD τ).loc main_arg2)) :=
    (Pipeline.withArrays_arr spec0 launch0.win.arr_inj c _ _ 3).trans (final m c)
  funext i
  obtain ⟨n, q, rfl⟩ : ∃ (n : Fin 262144) (q : Fin 4), i = ix2 n q := ⟨i 0, i 1, eq_ix2 i⟩
  refine (extractStridedSlice_apply (s := S262144x128) (t := S262144x4) ![0, 0] _ slices_S262144x128_S262144x4_0_0 (ix2 n q)
    (ix2 n (Fin.castLE (by decide : 4 ≤ 128) q))
    (fun a => by match a with | ⟨0, _⟩ => (show n.val = 0 + n.val; omega) | ⟨1, _⟩ => (show q.val = 0 + q.val; omega))).trans ?_
  exact congrFun hw _

/-- Every weakly fair execution ends with the result at `refOut` of the arguments and the arguments unchanged. -/
theorem run : θ_run defs (onTc (τ := τ) (main (F := Ideal))) ⟨m, fun _ => 0, ρ⟩ (fun r => ∀ c : Dev nD,
      r.2.mem ((c.tc : Thread nD τ).loc main_v0)
        = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v0 (Pipeline.mem_restRefs_of main_v0 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c)))⟩)
    (run_main m ρ)

end Cert.ReferenceIdeal.RValue

end
-- ==== Proof.PreFacts.lean ====
/-
  What the precondition says of the second weight tile: its rows from 33 on are zero.

  The precondition's last conjunct compares rows `33 … 127` of the tile with zero, entry by entry, and takes the
  conjunction of all the comparisons; the whole predicate is the conjunction of that with the finiteness conjuncts.
  So where the predicate holds every one of those entries equals zero on the extended reals.
-/
import proofs.«133119_g2000406002863626_pallasbulk_611_23_alg».proof.Pre_finite_inputs
import proofs.«133119_g2000406002863626_pallasbulk_611_23_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal.Laws

set_option maxRecDepth 16384

noncomputable section

namespace Cert.PreFacts

open Idealize.ShloMosaic Idealize.ShloMosaic.ValueIdx
open Cert.Pre_finite_inputs Cert.Pre_finite_inputs.Gen

instance : Subsingleton S_.Idx := ⟨fun a b => funext fun d => d.elim0⟩

/-- Where the precondition holds, rows `≥ 33` of the third argument are zero. -/
theorem tail_rows_zero (a0 : FVec Ideal S262144x3x3x4 .f32) (a1 a2 : FVec Ideal S128x128 .f32)
    (h : Cert.Pre_finite_inputs.fn (F := Ideal) a0 a1 a2 = fun _ => 1#1) (j q : Fin 128) (hj : 33 ≤ j.val) :
    a2 (ix2 j q) = 0 := by
  have h0 := congrFun h ix0
  dsimp only [Cert.Pre_finite_inputs.fn, Cert.Pre_finite_inputs.fn_part1] at h0
  have h1 := (IntOp.andi_eq_one.1 h0).2
  have hj' : j.val - 33 < 95 := by have := j.isLt; omega
  have h2 := Host.reduce_andi_all _ _ _ _ ix0 h1 (ix2 (⟨j.val - 33, hj'⟩ : Fin 95) q)
  have h3 : Ideal.cmp .oeq
      (extractStridedSlice S95x128 ![33, 0] a2 slices_S128x128_S95x128_33_0 (ix2 (⟨j.val - 33, hj'⟩ : Fin 95) q))
      (broadcastInDim S95x128 ![] bcast_S_S95x128 (constant (F := Ideal) S_ .f32 0x00000000#32) (ix2 (⟨j.val - 33, hj'⟩ : Fin 95) q)) = 1#1 := h2
  have e1 : extractStridedSlice S95x128 ![33, 0] a2 slices_S128x128_S95x128_33_0 (ix2 (⟨j.val - 33, hj'⟩ : Fin 95) q) = a2 (ix2 j q) :=
    extractStridedSlice_apply (s := S128x128) (t := S95x128) ![33, 0] a2 slices_S128x128_S95x128_33_0 _ (ix2 j q)
      (fun a => by match a with | ⟨0, _⟩ => (show j.val = 33 + (j.val - 33); omega) | ⟨1, _⟩ => (show q.val = 0 + q.val; omega))
  have e2 : broadcastInDim S95x128 ![] bcast_S_S95x128 (constant (F := Ideal) S_ .f32 0x00000000#32) (ix2 (⟨j.val - 33, hj'⟩ : Fin 95) q) = 0 :=
    (broadcastInDim_apply (s := S_) (t := S95x128) ![] bcast_S_S95x128 _ _ ix0 (fun a => a.elim0)).trans Ideal.ofBits_zero_f32
  rw [e1, e2] at h3
  by_contra hne
  simp [Ideal.cmp, hne] at h3

end Cert.PreFacts

end
-- ==== Proof.lean ====
/-
  A per-cell two-layer perceptron, computed two ways, is one function on the extended reals.

  Each of the 262144 cells has a 3×3×4 neighbourhood, read as 36 features followed by the constant one. Its outputs are
  `o c = ∑ j < 33, w2 (j, c) * max (∑ k < 37, w1 (k, j) * feature k) 0` for `c < 4`, where `w1` and `w2` are `128 × 128`
  weight tiles of which only the top-left corners `37 × 33` and `33 × 4` are read (`CellSpec.cell`).

  * The lane-major program keeps the cells in lanes: it views the neighbourhoods feature-major, multiplies the transposed
    corners of the weight tiles into blocks of 65536 cells, and transposes the `[4, N]` result at the end
    (`KernelValue.run`: the result array is `CellSpec.cell`).
  * The row-major program pads each cell's feature row with zeros to 128 entries and multiplies blocks of 256 rows by
    the WHOLE tiles, summing over all 128 hidden columns, and keeps the first four output columns (`RefValue.run`).

  The padded features meet `0 * w1 = 0`, so the first layer agrees for every extended real. The hidden columns
  `j ≥ 33` of the row-major program are multiplied by row `j` of the second tile: the two programs agree exactly when
  those rows are zero, which the precondition states (`PreFacts.tail_rows_zero`); `h * 0 = 0` holds for every extended
  real too, so finiteness of the inputs is not used. The remaining difference is the order of the factors.

  The frames are the generated ones; no rewrite was applied in printing the idealized program, so the fourth conjunct
  is `True`.
-/
import proofs.«133119_g2000406002863626_pallasbulk_611_23_alg».proof.Defs
import proofs.«133119_g2000406002863626_pallasbulk_611_23_alg».proof.Proof.Gen.Kernel
import proofs.«133119_g2000406002863626_pallasbulk_611_23_alg».proof.Proof.Gen.Kernel.Skeleton
import proofs.«133119_g2000406002863626_pallasbulk_611_23_alg».proof.Proof.Gen.Kernel.Launch
import proofs.«133119_g2000406002863626_pallasbulk_611_23_alg».proof.Proof.Gen.Kernel.Points
import proofs.«133119_g2000406002863626_pallasbulk_611_23_alg».proof.Proof.Gen.Kernel.Frame
import proofs.«133119_g2000406002863626_pallasbulk_611_23_alg».proof.Proof.Gen.KernelIdeal
import proofs.«133119_g2000406002863626_pallasbulk_611_23_alg».proof.Proof.Gen.KernelIdeal.Skeleton
import proofs.«133119_g2000406002863626_pallasbulk_611_23_alg».proof.Proof.Gen.KernelIdeal.Launch
import proofs.«133119_g2000406002863626_pallasbulk_611_23_alg».proof.Proof.Gen.KernelIdeal.Points
import proofs.«133119_g2000406002863626_pallasbulk_611_23_alg».proof.Proof.Gen.KernelIdeal.Frame
import proofs.«133119_g2000406002863626_pallasbulk_611_23_alg».proof.Proof.Gen.ReferenceIdeal
import proofs.«133119_g2000406002863626_pallasbulk_611_23_alg».proof.Proof.Gen.ReferenceIdeal.Skeleton
import proofs.«133119_g2000406002863626_pallasbulk_611_23_alg».proof.Proof.Gen.ReferenceIdeal.Launch
import proofs.«133119_g2000406002863626_pallasbulk_611_23_alg».proof.Proof.Gen.ReferenceIdeal.Points
import proofs.«133119_g2000406002863626_pallasbulk_611_23_alg».proof.Proof.Gen.ReferenceIdeal.Frame
import proofs.«133119_g2000406002863626_pallasbulk_611_23_alg».proof.Proof.Gen.Pre_finite_inputs
import proofs.«133119_g2000406002863626_pallasbulk_611_23_alg».proof.Proof.KernelValue
import proofs.«133119_g2000406002863626_pallasbulk_611_23_alg».proof.Proof.RefValue
import proofs.«133119_g2000406002863626_pallasbulk_611_23_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- Both programs end with the result array at `CellSpec.cell` of the arguments: the lane-major one always, the
    row-major one because the precondition makes rows `≥ 33` of the second weight tile zero. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RValue.run m' ρ')
  rw [(hagree c).1, (hagree c).2.1, (hagree c).2.2]
  exact Cert.ReferenceIdeal.RValue.refOut_eq_cell _ _ _
    (fun j q hj => Cert.PreFacts.tail_rows_zero _ _ _ (hpre c) j q hj)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
